-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1 : Shape := ⟨2, ![32768, 1]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  main_v58

def fn_part2 {F : FTy → Type} [FloatOps F] (main_arg7 : FVec F S512 .f32) (main_arg8 : FVec F S512x512 .f32) (main_arg9 : FVec F S512x512 .f32) (main_arg10 : FVec F S512 .f32) (main_arg11 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x512 .f32) (main_arg1 : FVec F S32768x512 .f32) (main_arg2 : FVec F S32768x1 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_v13 main_v16
-- ==== Kernel.lean ====
abbrev S32768x512 : Shape := ⟨2, ![32768, 512]⟩
abbrev S32768x1 : Shape := ⟨2, ![32768, 1]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1024x512 : Shape := ⟨2, ![1024, 512]⟩
abbrev S1024x1 : Shape := ⟨2, ![1024, 1]⟩
abbrev S1024x1536 : Shape := ⟨2, ![1024, 1536]⟩
abbrev S1x512 : Shape := ⟨2, ![1, 512]⟩

abbrev nBuf : Space → Nat
  | .hbm => 18
  | .vmem => 11
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x1536, .f32⟩
  | .hbm, ⟨13, _⟩ => ⟨S512x1536, .bf16⟩
  | .hbm, ⟨14, _⟩ => ⟨S512x1536, .f32⟩
  | .hbm, ⟨15, _⟩ => ⟨S512x1536, .bf16⟩
  | .hbm, ⟨16, _⟩ => ⟨S1536, .f32⟩
  | .hbm, ⟨17, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S512x1536, .bf16⟩
  | .local _ .vmem, ⟨7, _⟩ => ⟨S512x1536, .bf16⟩
  | .local _ .vmem, ⟨8, _⟩ => ⟨S1536, .f32⟩
  | .local _ .vmem, ⟨9, _⟩ => ⟨S1024x512, .f32⟩
  | .local _ .vmem, ⟨10, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1536_o0_S512 : S1536.Slices ![0] S512
  slices_S1536_o512_S512 : S1536.Slices ![512] S512
  slices_S1536_o1024_S512 : S1536.Slices ![1024] S512
  shapeCasts_S512_S1x512 : S512.ShapeCasts S1x512
  broadcasts_S1x512_S1024x512 : S1x512.Broadcasts S1024x512
  broadcasts_S1024x1_S1024x512 : S1024x1.Broadcasts S1024x512
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536.size a ≤ S1536.size a
  hwx0_5 : ∀ i : grid0.Coords, EltTy.bits .f32 = 32 ∨ (Rect.block (s := S1536) S1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1 : Shape := ⟨2, ![32768, 1]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S32768x512, .f32⟩
  | .hbm, ⟨13, _⟩ => ⟨S1x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S32768x1_S32768x512_0_1 : S32768x1.BroadcastsInDim S32768x512 (![0, 1] : Fin 2 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.CellLaunchBits.lean ====
/-
  The launch of the gated recurrent cell and what it leaves in memory.

  @main first builds, on the host, the two 512×1536 weight matrices (the update, reset and candidate weights side by side,
  narrowed to bf16) and the 1536-long bias (the three biases end to end), then launches one kernel over 32 grid points.
  Point t is handed rows 1024·t … 1024·t+1023 of the inputs, of the state and of the attention column, and the three
  host-built arrays whole; it loads them, computes the new state of those 1024 rows as one pure function of what it loaded,
  and stores it over its whole output tile, which the pipeline writes back to rows 1024·t … of the result.

  Stated here, for any float instance: the contents of every buffer when the kernel is launched (`entry`), each window's
  tile at a grid point (`tile`), what one body execution leaves in the output tile (`newRows`), the body's triple, the
  pipeline's proof data, and the run: every weakly fair execution terminates without a fault with the result array at what
  the proof data say and every argument array as it was.
-/
import proofs.«116195_j32049045963131_2_alg».proof.Proof.Gen.Kernel.Launch
import proofs.«116195_j32049045963131_2_alg».proof.Proof.Gen.Kernel.Skeleton
import proofs.«116195_j32049045963131_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the kernel is launched: the launch memory after the five host operations (three
    concatenations and two narrowings), which write the five intermediate buffers and nothing else. -/
abbrev entry (c : Dev nD) (b : Ref sig .tc) : Buf (Elt F) ((c : Thread nD τ).loc b) :=
  StableHlo.after hostOps0 (fun b => m (c, b)) b

/-- None of the five host operations allocates a buffer. -/
theorem hostOps0_fresh : (hostOps0 : List (HloOp τ sig (Elt F))).Forall fun op => op.fresh = ∅ := by
  simp only [List.Forall]; repeat' constructor

/-- @main is the five host operations, then the launch, which finds the buffers at `entry`. -/
theorem main_to_launch (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the launch writes argument 0: the launch finds it as it was. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 1: the launch finds it as it was. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 2: the launch finds it as it was. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 3: the launch finds it as it was. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 4: the launch finds it as it was. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 5: the launch finds it as it was. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 6: the launch finds it as it was. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 7: the launch finds it as it was. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 8: the launch finds it as it was. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 9: the launch finds it as it was. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 10: the launch finds it as it was. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 11: the launch finds it as it was. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The windows' tiles -/

/-- Window `w`'s tile at grid point `t`, read off its array as the launch finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its tile at every grid point, whether the pipeline fetched it
    there or not (a window whose block index did not move still holds the same tile). -/
theorem staged0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's current staging buffer holds its tile at every grid point, whether the pipeline fetched it
    there or not (a window whose block index did not move still holds the same tile). -/
theorem staged1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's current staging buffer holds its tile at every grid point, whether the pipeline fetched it
    there or not (a window whose block index did not move still holds the same tile). -/
theorem staged2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's current staging buffer holds its tile at every grid point, whether the pipeline fetched it
    there or not (a window whose block index did not move still holds the same tile). -/
theorem staged3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's current staging buffer holds its tile at every grid point, whether the pipeline fetched it
    there or not (a window whose block index did not move still holds the same tile). -/
theorem staged4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's current staging buffer holds its tile at every grid point, whether the pipeline fetched it
    there or not (a window whose block index did not move still holds the same tile). -/
theorem staged5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

/-! ## The argument arrays end as they began -/

/-- In a final state where every window's array is what the proof data compute and every other buffer is as the launch
    found it, the twelve argument arrays are as they were launched: the inputs, the state and the attention column are
    arrays of input windows, which the pipeline only reads; the nine weights and biases are touched by no window. -/
theorem args_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c)⟩

/-- A run that ends in such a state leaves the twelve argument arrays as they were launched. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_of_post m dats hA r h c) h

/-! ## One body execution -/

/-- The whole 1024×512 tile, the whole 1024×1 column, a whole 512×1536 weight matrix, the whole bias: what the body's
    loads and its one store address. -/
abbrev rTile : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rWeights : Rect S512x1536 := Rect.unit (s := S512x1536) ![0, 0] S512x1536.size inb_S512x1536_S512x1536_0_0
abbrev rBias : Rect S1536 := Rect.unit (s := S1536) ![0] S1536.size inb_S1536_S1536_0

/-- The output tile after the body, from the six input tiles: the one store of the new state of the tile's 1024 rows. -/
def newRows (x0 : Vec F S1024x512 .f32) (x1 : Vec F S1024x512 .f32) (x2 : Vec F S1024x1 .f32) (x3 : Vec F S512x1536 .bf16) (x4 : Vec F S512x1536 .bf16) (x5 : Vec F S1536 .f32) : Vec F S1024x512 .f32 :=
  View.canon [⟨rTile, k0_pay1 (View.ld x0 rTile) (View.ld x1 rTile) (View.ld x2 rCol) (View.ld x3 rWeights) (View.ld x4 rWeights) (View.ld x5 rBias)⟩]

/-- The one store covers the output tile. -/
theorem newRows_cover (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y

set_option maxHeartbeats 1000000 in
/-- The body on whole staging buffers, the six inputs' at contents `x0 … x5` and the output's at anything, runs to the
    continuation with the inputs' as they were and the output's at `newRows` of them. -/
theorem body_triple (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1536 .f32) (harg6 : arg6.IsWhole) (arg7 : Memref sig .tc .vmem S1024x512 .f32) (harg7 : arg7.IsWhole)
    (x0 : Vec F S1024x512 .f32) (x1 : Vec F S1024x512 .f32) (x2 : Vec F S1024x1 .f32) (x3 : Vec F S512x1536 .bf16) (x4 : Vec F S512x1536 .bf16) (x5 : Vec F S1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newRows x0 x1 x2 x3 x4 x5)) -∗ K ⟨⟩))
      ⊢ wp frame (wpE (defs₀ (F := F)) Variants.none c none) E (cc0__augru_kernel i arg1 harg1 arg2 harg2 arg3 harg3 arg4 harg4 arg5 harg5 arg6 harg6 arg7 harg7) K := by
  simp only [cc0__augru_kernel_eq_skeleton]; unfold cc0__augru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (newRows_cover _)

/-! ## The pipeline's proof data -/

/-- The proof data of the pipeline on core `c`: the arrays as the launch finds them; after the body at point `t` each
    input's buffer still at its tile and the output's at `newRows` of the six tiles; the scratch and the generator
    register untouched; nothing owed; full shares. -/
def pipe (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => newRows (tile m c 0 t) (tile m c 1 t) (tile m c 2 t) (tile m c 3 t) (tile m c 4 t) (tile m c 5 t)
  Φ _ := Pipeline.ΦA spec0 c
  q _ := fullShare
  owed _ := 0

theorem pipe_A (c : Dev nD) (w : Fin cfg0.W) : (pipe m 0 c).A w = entry m c (Pipeline.arrRef spec0 w) := by
  dsimp only [pipe]

theorem after0 (c : Dev nD) (t : Fin cfg0.N) : (pipe m 0 c).after 0 t = tile m c 0 t := by dsimp only [pipe]
theorem after1 (c : Dev nD) (t : Fin cfg0.N) : (pipe m 0 c).after 1 t = tile m c 1 t := by dsimp only [pipe]
theorem after2 (c : Dev nD) (t : Fin cfg0.N) : (pipe m 0 c).after 2 t = tile m c 2 t := by dsimp only [pipe]
theorem after3 (c : Dev nD) (t : Fin cfg0.N) : (pipe m 0 c).after 3 t = tile m c 3 t := by dsimp only [pipe]
theorem after4 (c : Dev nD) (t : Fin cfg0.N) : (pipe m 0 c).after 4 t = tile m c 4 t := by dsimp only [pipe]
theorem after5 (c : Dev nD) (t : Fin cfg0.N) : (pipe m 0 c).after 5 t = tile m c 5 t := by dsimp only [pipe]
theorem after6 (c : Dev nD) (t : Fin cfg0.N) : (pipe m 0 c).after 6 t = newRows (tile m c 0 t) (tile m c 1 t) (tile m c 2 t) (tile m c 3 t) (tile m c 4 t) (tile m c 5 t) := by dsimp only [pipe]

theorem staged0 (c : Dev nD) (t : Fin cfg0.N) (d) : (pipe m 0 c).before 0 t d = tile m c 0 t :=
  staged0_of m (pipe m 0 c) (pipe_A m c 0) (after0 m c) t d
theorem staged1 (c : Dev nD) (t : Fin cfg0.N) (d) : (pipe m 0 c).before 1 t d = tile m c 1 t :=
  staged1_of m (pipe m 0 c) (pipe_A m c 1) (after1 m c) t d
theorem staged2 (c : Dev nD) (t : Fin cfg0.N) (d) : (pipe m 0 c).before 2 t d = tile m c 2 t :=
  staged2_of m (pipe m 0 c) (pipe_A m c 2) (after2 m c) t d
theorem staged3 (c : Dev nD) (t : Fin cfg0.N) (d) : (pipe m 0 c).before 3 t d = tile m c 3 t :=
  staged3_of m (pipe m 0 c) (pipe_A m c 3) (after3 m c) t d
theorem staged4 (c : Dev nD) (t : Fin cfg0.N) (d) : (pipe m 0 c).before 4 t d = tile m c 4 t :=
  staged4_of m (pipe m 0 c) (pipe_A m c 4) (after4 m c) t d
theorem staged5 (c : Dev nD) (t : Fin cfg0.N) (d) : (pipe m 0 c).before 5 t d = tile m c 5 t :=
  staged5_of m (pipe m 0 c) (pipe_A m c 5) (after5 m c) t d

/-! ## The body at a grid point -/

/-- What the body is called with at point `t`, -/
def bodyPre (c : Dev nD) (t : Fin cfg0.N) : sProp 𝕄 :=
  iprop((pipe m 0 c).Φ t.castSucc ∗ (pipe m 0 c).owesAt () t.castSucc
    ∗ (∃ d, owns (c : Thread nD τ) (st0_0 t) fullShare ((pipe m 0 c).before 0 t d))
    ∗ (∃ d, owns (c : Thread nD τ) (st0_1 t) fullShare ((pipe m 0 c).before 1 t d))
    ∗ (∃ d, owns (c : Thread nD τ) (st0_2 t) fullShare ((pipe m 0 c).before 2 t d))
    ∗ (∃ d, owns (c : Thread nD τ) (st0_3 t) fullShare ((pipe m 0 c).before 3 t d))
    ∗ (∃ d, owns (c : Thread nD τ) (st0_4 t) fullShare ((pipe m 0 c).before 4 t d))
    ∗ (∃ d, owns (c : Thread nD τ) (st0_5 t) fullShare ((pipe m 0 c).before 5 t d))
    ∗ (∃ d, owns (c : Thread nD τ) (st0_6 t) fullShare ((pipe m 0 c).before 6 t d)))

/-- and what it returns. -/
def bodyPost (c : Dev nD) (t : Fin cfg0.N) : sProp 𝕄 :=
  iprop((pipe m 0 c).Φ t.succ ∗ (pipe m 0 c).owesAt () t.succ
    ∗ owns (c : Thread nD τ) (st0_0 t) fullShare ((pipe m 0 c).after 0 t)
    ∗ owns (c : Thread nD τ) (st0_1 t) fullShare ((pipe m 0 c).after 1 t)
    ∗ owns (c : Thread nD τ) (st0_2 t) fullShare ((pipe m 0 c).after 2 t)
    ∗ owns (c : Thread nD τ) (st0_3 t) fullShare ((pipe m 0 c).after 3 t)
    ∗ owns (c : Thread nD τ) (st0_4 t) fullShare ((pipe m 0 c).after 4 t)
    ∗ owns (c : Thread nD τ) (st0_5 t) fullShare ((pipe m 0 c).after 5 t)
    ∗ owns (c : Thread nD τ) (st0_6 t) fullShare ((pipe m 0 c).after 6 t))

/-- The body at any grid point: the inputs' buffers hold their tiles, so the triple applies; the scratch and the
    core's obligations pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5]
  rw [show (pipe m 0 c).Φ t.succ = (pipe m 0 c).Φ t.castSucc from rfl,
    show (pipe m 0 c).owesAt () t.succ = (pipe m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every grid point. -/
theorem body_obligation (c : Dev nD) : BodyObligation (pipe (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault, with every
    window's array at what the proof data compute and every other buffer as the launch found it. -/
theorem run_main : θ_run defs (onTc (τ := τ) (main (F := F))) (s₀ m ρ) (Pipeline.FramePost cfgs (pipe m) 0 (entry m)) :=
  Pipeline.θ_run_frame cfgs (pipe m) (0 : Fin 1) launch0 defs₀ Variants.none m ρ main
    (hbody := fun c => (body_obligation m c).loose) (hshare := fun c => (pipe m 0 c).share_full fun _ => rfl)
    (howed := fun _ _ => rfl) (V := entry m) (hmain := main_to_launch m Variants.none) (hA := pipe_A m) (hΦ := fun _ _ => rfl)

/-- The program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  args_kept m ρ (pipe m) (pipe_A m) (run_main m ρ)

end Cert.Kernel.Cell

end
-- ==== Proof.CellLaunchIdeal.lean ====
/-
  The launch of the gated recurrent cell and what it leaves in memory.

  @main first builds, on the host, the two 512×1536 weight matrices (the update, reset and candidate weights side by side,
  narrowed to bf16) and the 1536-long bias (the three biases end to end), then launches one kernel over 32 grid points.
  Point t is handed rows 1024·t … 1024·t+1023 of the inputs, of the state and of the attention column, and the three
  host-built arrays whole; it loads them, computes the new state of those 1024 rows as one pure function of what it loaded,
  and stores it over its whole output tile, which the pipeline writes back to rows 1024·t … of the result.

  Stated here, for any float instance: the contents of every buffer when the kernel is launched (`entry`), each window's
  tile at a grid point (`tile`), what one body execution leaves in the output tile (`newRows`), the body's triple, the
  pipeline's proof data, and the run: every weakly fair execution terminates without a fault with the result array at what
  the proof data say and every argument array as it was.
-/
import proofs.«116195_j32049045963131_2_alg».proof.Proof.Gen.KernelIdeal.Launch
import proofs.«116195_j32049045963131_2_alg».proof.Proof.Gen.KernelIdeal.Skeleton
import proofs.«116195_j32049045963131_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the kernel is launched: the launch memory after the five host operations (three
    concatenations and two narrowings), which write the five intermediate buffers and nothing else. -/
abbrev entry (c : Dev nD) (b : Ref sig .tc) : Buf (Elt F) ((c : Thread nD τ).loc b) :=
  StableHlo.after hostOps0 (fun b => m (c, b)) b

/-- None of the five host operations allocates a buffer. -/
theorem hostOps0_fresh : (hostOps0 : List (HloOp τ sig (Elt F))).Forall fun op => op.fresh = ∅ := by
  simp only [List.Forall]; repeat' constructor

/-- @main is the five host operations, then the launch, which finds the buffers at `entry`. -/
theorem main_to_launch (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the launch writes argument 0: the launch finds it as it was. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 1: the launch finds it as it was. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 2: the launch finds it as it was. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 3: the launch finds it as it was. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 4: the launch finds it as it was. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 5: the launch finds it as it was. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 6: the launch finds it as it was. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 7: the launch finds it as it was. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 8: the launch finds it as it was. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 9: the launch finds it as it was. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 10: the launch finds it as it was. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, Finset.mem_singleton]
    repeat' apply And.intro
    all_goals exact StableHlo.devRef_ne_of_ne (by decide)))
/-- No host operation before the launch writes argument 11: the launch finds it as it was. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## The windows' tiles -/

/-- Window `w`'s tile at grid point `t`, read off its array as the launch finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its tile at every grid point, whether the pipeline fetched it
    there or not (a window whose block index did not move still holds the same tile). -/
theorem staged0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's current staging buffer holds its tile at every grid point, whether the pipeline fetched it
    there or not (a window whose block index did not move still holds the same tile). -/
theorem staged1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's current staging buffer holds its tile at every grid point, whether the pipeline fetched it
    there or not (a window whose block index did not move still holds the same tile). -/
theorem staged2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's current staging buffer holds its tile at every grid point, whether the pipeline fetched it
    there or not (a window whose block index did not move still holds the same tile). -/
theorem staged3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's current staging buffer holds its tile at every grid point, whether the pipeline fetched it
    there or not (a window whose block index did not move still holds the same tile). -/
theorem staged4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's current staging buffer holds its tile at every grid point, whether the pipeline fetched it
    there or not (a window whose block index did not move still holds the same tile). -/
theorem staged5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)

/-! ## The argument arrays end as they began -/

/-- In a final state where every window's array is what the proof data compute and every other buffer is as the launch
    found it, the twelve argument arrays are as they were launched: the inputs, the state and the attention column are
    arrays of input windows, which the pipeline only reads; the nine weights and biases are touched by no window. -/
theorem args_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c)⟩

/-- A run that ends in such a state leaves the twelve argument arrays as they were launched. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_of_post m dats hA r h c) h

/-! ## One body execution -/

/-- The whole 1024×512 tile, the whole 1024×1 column, a whole 512×1536 weight matrix, the whole bias: what the body's
    loads and its one store address. -/
abbrev rTile : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rWeights : Rect S512x1536 := Rect.unit (s := S512x1536) ![0, 0] S512x1536.size inb_S512x1536_S512x1536_0_0
abbrev rBias : Rect S1536 := Rect.unit (s := S1536) ![0] S1536.size inb_S1536_S1536_0

/-- The output tile after the body, from the six input tiles: the one store of the new state of the tile's 1024 rows. -/
def newRows (x0 : Vec F S1024x512 .f32) (x1 : Vec F S1024x512 .f32) (x2 : Vec F S1024x1 .f32) (x3 : Vec F S512x1536 .bf16) (x4 : Vec F S512x1536 .bf16) (x5 : Vec F S1536 .f32) : Vec F S1024x512 .f32 :=
  View.canon [⟨rTile, k0_pay1 (View.ld x0 rTile) (View.ld x1 rTile) (View.ld x2 rCol) (View.ld x3 rWeights) (View.ld x4 rWeights) (View.ld x5 rBias)⟩]

/-- The one store covers the output tile. -/
theorem newRows_cover (p0 : Vec F S1024x512 .f32) (y : S1024x512.Idx) :
    ∃ pc ∈ ([⟨rTile, p0⟩] : List (View.Piece (Elt F) S1024x512 .f32)), y ∈ pc.1.set :=
  View.cover_of_tiled [⟨rTile, p0⟩] S1024x512.size (by rfl) y

set_option maxHeartbeats 1000000 in
/-- The body on whole staging buffers, the six inputs' at contents `x0 … x5` and the output's at anything, runs to the
    continuation with the inputs' as they were and the output's at `newRows` of them. -/
theorem body_triple (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S512x1536 .bf16) (harg4 : arg4.IsWhole) (arg5 : Memref sig .tc .vmem S512x1536 .bf16) (harg5 : arg5.IsWhole) (arg6 : Memref sig .tc .vmem S1536 .f32) (harg6 : arg6.IsWhole) (arg7 : Memref sig .tc .vmem S1024x512 .f32) (harg7 : arg7.IsWhole)
    (x0 : Vec F S1024x512 .f32) (x1 : Vec F S1024x512 .f32) (x2 : Vec F S1024x1 .f32) (x3 : Vec F S512x1536 .bf16) (x4 : Vec F S512x1536 .bf16) (x5 : Vec F S1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (newRows x0 x1 x2 x3 x4 x5)) -∗ K ⟨⟩))
      ⊢ wp frame (wpE (defs₀ (F := F)) Variants.none c none) E (cc0__augru_kernel i arg1 harg1 arg2 harg2 arg3 harg3 arg4 harg4 arg5 harg5 arg6 harg6 arg7 harg7) K := by
  simp only [cc0__augru_kernel_eq_skeleton]; unfold cc0__augru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (newRows_cover _)

/-! ## The pipeline's proof data -/

/-- The proof data of the pipeline on core `c`: the arrays as the launch finds them; after the body at point `t` each
    input's buffer still at its tile and the output's at `newRows` of the six tiles; the scratch and the generator
    register untouched; nothing owed; full shares. -/
def pipe (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => newRows (tile m c 0 t) (tile m c 1 t) (tile m c 2 t) (tile m c 3 t) (tile m c 4 t) (tile m c 5 t)
  Φ _ := Pipeline.ΦA spec0 c
  q _ := fullShare
  owed _ := 0

theorem pipe_A (c : Dev nD) (w : Fin cfg0.W) : (pipe m 0 c).A w = entry m c (Pipeline.arrRef spec0 w) := by
  dsimp only [pipe]

theorem after0 (c : Dev nD) (t : Fin cfg0.N) : (pipe m 0 c).after 0 t = tile m c 0 t := by dsimp only [pipe]
theorem after1 (c : Dev nD) (t : Fin cfg0.N) : (pipe m 0 c).after 1 t = tile m c 1 t := by dsimp only [pipe]
theorem after2 (c : Dev nD) (t : Fin cfg0.N) : (pipe m 0 c).after 2 t = tile m c 2 t := by dsimp only [pipe]
theorem after3 (c : Dev nD) (t : Fin cfg0.N) : (pipe m 0 c).after 3 t = tile m c 3 t := by dsimp only [pipe]
theorem after4 (c : Dev nD) (t : Fin cfg0.N) : (pipe m 0 c).after 4 t = tile m c 4 t := by dsimp only [pipe]
theorem after5 (c : Dev nD) (t : Fin cfg0.N) : (pipe m 0 c).after 5 t = tile m c 5 t := by dsimp only [pipe]
theorem after6 (c : Dev nD) (t : Fin cfg0.N) : (pipe m 0 c).after 6 t = newRows (tile m c 0 t) (tile m c 1 t) (tile m c 2 t) (tile m c 3 t) (tile m c 4 t) (tile m c 5 t) := by dsimp only [pipe]

theorem staged0 (c : Dev nD) (t : Fin cfg0.N) (d) : (pipe m 0 c).before 0 t d = tile m c 0 t :=
  staged0_of m (pipe m 0 c) (pipe_A m c 0) (after0 m c) t d
theorem staged1 (c : Dev nD) (t : Fin cfg0.N) (d) : (pipe m 0 c).before 1 t d = tile m c 1 t :=
  staged1_of m (pipe m 0 c) (pipe_A m c 1) (after1 m c) t d
theorem staged2 (c : Dev nD) (t : Fin cfg0.N) (d) : (pipe m 0 c).before 2 t d = tile m c 2 t :=
  staged2_of m (pipe m 0 c) (pipe_A m c 2) (after2 m c) t d
theorem staged3 (c : Dev nD) (t : Fin cfg0.N) (d) : (pipe m 0 c).before 3 t d = tile m c 3 t :=
  staged3_of m (pipe m 0 c) (pipe_A m c 3) (after3 m c) t d
theorem staged4 (c : Dev nD) (t : Fin cfg0.N) (d) : (pipe m 0 c).before 4 t d = tile m c 4 t :=
  staged4_of m (pipe m 0 c) (pipe_A m c 4) (after4 m c) t d
theorem staged5 (c : Dev nD) (t : Fin cfg0.N) (d) : (pipe m 0 c).before 5 t d = tile m c 5 t :=
  staged5_of m (pipe m 0 c) (pipe_A m c 5) (after5 m c) t d

/-! ## The body at a grid point -/

/-- What the body is called with at point `t`, -/
def bodyPre (c : Dev nD) (t : Fin cfg0.N) : sProp 𝕄 :=
  iprop((pipe m 0 c).Φ t.castSucc ∗ (pipe m 0 c).owesAt () t.castSucc
    ∗ (∃ d, owns (c : Thread nD τ) (st0_0 t) fullShare ((pipe m 0 c).before 0 t d))
    ∗ (∃ d, owns (c : Thread nD τ) (st0_1 t) fullShare ((pipe m 0 c).before 1 t d))
    ∗ (∃ d, owns (c : Thread nD τ) (st0_2 t) fullShare ((pipe m 0 c).before 2 t d))
    ∗ (∃ d, owns (c : Thread nD τ) (st0_3 t) fullShare ((pipe m 0 c).before 3 t d))
    ∗ (∃ d, owns (c : Thread nD τ) (st0_4 t) fullShare ((pipe m 0 c).before 4 t d))
    ∗ (∃ d, owns (c : Thread nD τ) (st0_5 t) fullShare ((pipe m 0 c).before 5 t d))
    ∗ (∃ d, owns (c : Thread nD τ) (st0_6 t) fullShare ((pipe m 0 c).before 6 t d)))

/-- and what it returns. -/
def bodyPost (c : Dev nD) (t : Fin cfg0.N) : sProp 𝕄 :=
  iprop((pipe m 0 c).Φ t.succ ∗ (pipe m 0 c).owesAt () t.succ
    ∗ owns (c : Thread nD τ) (st0_0 t) fullShare ((pipe m 0 c).after 0 t)
    ∗ owns (c : Thread nD τ) (st0_1 t) fullShare ((pipe m 0 c).after 1 t)
    ∗ owns (c : Thread nD τ) (st0_2 t) fullShare ((pipe m 0 c).after 2 t)
    ∗ owns (c : Thread nD τ) (st0_3 t) fullShare ((pipe m 0 c).after 3 t)
    ∗ owns (c : Thread nD τ) (st0_4 t) fullShare ((pipe m 0 c).after 4 t)
    ∗ owns (c : Thread nD τ) (st0_5 t) fullShare ((pipe m 0 c).after 5 t)
    ∗ owns (c : Thread nD τ) (st0_6 t) fullShare ((pipe m 0 c).after 6 t))

/-- The body at any grid point: the inputs' buffers hold their tiles, so the triple applies; the scratch and the
    core's obligations pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5]
  rw [show (pipe m 0 c).Φ t.succ = (pipe m 0 c).Φ t.castSucc from rfl,
    show (pipe m 0 c).owesAt () t.succ = (pipe m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every grid point. -/
theorem body_obligation (c : Dev nD) : BodyObligation (pipe (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault, with every
    window's array at what the proof data compute and every other buffer as the launch found it. -/
theorem run_main : θ_run defs (onTc (τ := τ) (main (F := F))) (s₀ m ρ) (Pipeline.FramePost cfgs (pipe m) 0 (entry m)) :=
  Pipeline.θ_run_frame cfgs (pipe m) (0 : Fin 1) launch0 defs₀ Variants.none m ρ main
    (hbody := fun c => (body_obligation m c).loose) (hshare := fun c => (pipe m 0 c).share_full fun _ => rfl)
    (howed := fun _ _ => rfl) (V := entry m) (hmain := main_to_launch m Variants.none) (hA := pipe_A m) (hΦ := fun _ _ => rfl)

/-- The program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  args_kept m ρ (pipe m) (pipe_A m) (run_main m ρ)

end Cert.KernelIdeal.Cell

end
-- ==== Proof.CellSpec.lean ====
/-
  The attention-gated recurrent cell, as a function of its arguments, index by index on the extended reals.

  For row i and unit j, with x the inputs, h the state, a the attention column, (wx, wh, b) a gate's weights and bias:
    pre(i, j)  = Σ_k x(i,k)·wx(k,j) + b(j) + Σ_k h(i,k)·wh(k,j)
    u = logistic(pre with the update gate's weights),   r = logistic(pre with the reset gate's),
    c = tanh(Σ_k x(i,k)·wcx(k,j) + bc(j) + r·Σ_k h(i,k)·wch(k,j)),
  and the new state is the state moved toward c by the fraction a(i)·u:
    h + (a·u)·(c − h)          (one arrangement),
    (1 − a·u)·h + (a·u)·c      (the other).
  The logistic function and tanh take every extended real to a real number, so wherever the state and the attention score
  are real the two arrangements are two spellings of one real number.
-/
import Idealize.ShloMosaic.PureOps.Ideal
import Idealize.ShloMosaic.Lib.ValueIdx

noncomputable section

namespace Cert.CellSpec

open Idealize.ShloMosaic Idealize.ShloMosaic.ValueIdx

abbrev Rows : Shape := ⟨2, ![32768, 512]⟩
abbrev Col : Shape := ⟨2, ![32768, 1]⟩
abbrev Weights : Shape := ⟨2, ![512, 512]⟩
abbrev Bias : Shape := ⟨1, ![512]⟩

/-- The float word of 1.0 denotes the number one. -/
theorem ofBits_one : Ideal.ofBits .f32 0x3F800000#32 = 1 := by
  simp [Ideal.ofBits, Ideal.ieee, -EReal.coe_mul]; norm_num

/-- The float word of +0.0 denotes zero. -/
theorem ofBits_zero : Ideal.ofBits .f32 0x00000000#32 = 0 := by
  simp [Ideal.ofBits, Ideal.ieee]

/-- Row `i` of `x` against column `j` of `w`. -/
def dot (x : Rows.Idx → EReal) (w : Weights.Idx → EReal) (i : Fin 32768) (j : Fin 512) : EReal :=
  ∑ k : Fin 512, x (ix2 i k) * w (ix2 k j)

/-- A gate before its activation: the inputs' projection, the bias, the state's projection, added in that order. -/
def pre (x h : Rows.Idx → EReal) (wx : Weights.Idx → EReal) (b : Bias.Idx → EReal) (wh : Weights.Idx → EReal)
    (i : Fin 32768) (j : Fin 512) : EReal :=
  dot x wx i j + b (ix1 j) + dot h wh i j

/-- The candidate state: tanh of the inputs' projection plus bias plus the reset gate times the state's projection. -/
def candidate (x h : Rows.Idx → EReal) (wrx : Weights.Idx → EReal) (br : Bias.Idx → EReal) (wrh : Weights.Idx → EReal)
    (wcx : Weights.Idx → EReal) (bc : Bias.Idx → EReal) (wch : Weights.Idx → EReal) (i : Fin 32768) (j : Fin 512) : EReal :=
  Ideal.tanh (dot x wcx i j + bc (ix1 j) + Ideal.logistic (pre x h wrx br wrh i j) * dot h wch i j)

/-- The fraction of the way the state moves toward the candidate: the attention score times the update gate. -/
def step (x h : Rows.Idx → EReal) (a : Col.Idx → EReal) (wux : Weights.Idx → EReal) (bu : Bias.Idx → EReal) (wuh : Weights.Idx → EReal)
    (i : Fin 32768) (j : Fin 512) : EReal :=
  a (ix2 i 0) * Ideal.logistic (pre x h wux bu wuh i j)

/-- The new state in the arrangement h + (a·u)·(c − h). -/
def moved (x h : Rows.Idx → EReal) (a : Col.Idx → EReal) (wux : Weights.Idx → EReal) (bu : Bias.Idx → EReal) (wuh : Weights.Idx → EReal)
    (wrx : Weights.Idx → EReal) (br : Bias.Idx → EReal) (wrh : Weights.Idx → EReal)
    (wcx : Weights.Idx → EReal) (bc : Bias.Idx → EReal) (wch : Weights.Idx → EReal) : Rows.Idx → EReal :=
  fun y => h (ix2 (y 0) (y 1)) + step x h a wux bu wuh (y 0) (y 1)
    * (candidate x h wrx br wrh wcx bc wch (y 0) (y 1) - h (ix2 (y 0) (y 1)))

/-- The new state in the arrangement (1 − a·u)·h + (a·u)·c. -/
def mixed (x h : Rows.Idx → EReal) (a : Col.Idx → EReal) (wux : Weights.Idx → EReal) (bu : Bias.Idx → EReal) (wuh : Weights.Idx → EReal)
    (wrx : Weights.Idx → EReal) (br : Bias.Idx → EReal) (wrh : Weights.Idx → EReal)
    (wcx : Weights.Idx → EReal) (bc : Bias.Idx → EReal) (wch : Weights.Idx → EReal) : Rows.Idx → EReal :=
  fun y => (1 - step x h a wux bu wuh (y 0) (y 1)) * h (ix2 (y 0) (y 1))
    + step x h a wux bu wuh (y 0) (y 1) * candidate x h wrx br wrh wcx bc wch (y 0) (y 1)

/-- The logistic function of any extended real is a real number (0 at −∞, 1 at +∞). -/
theorem logistic_real (z : EReal) : ∃ r : ℝ, Ideal.logistic z = (r : EReal) := by
  induction z using EReal.rec with
  | bot => exact ⟨0, by rw [Ideal.logistic_bot]; rfl⟩
  | coe r => exact ⟨_, Ideal.logistic_coe r⟩
  | top => exact ⟨1, by rw [Ideal.logistic_top]; rfl⟩

/-- tanh of any extended real is a real number (−1 at −∞, 1 at +∞). -/
theorem tanh_real (z : EReal) : ∃ r : ℝ, Ideal.tanh z = (r : EReal) := by
  induction z using EReal.rec with
  | bot => exact ⟨-1, by rw [Ideal.tanh_bot, EReal.coe_neg, EReal.coe_one]⟩
  | coe r => exact ⟨_, Ideal.tanh_coe r⟩
  | top => exact ⟨1, by rw [Ideal.tanh_top]; rfl⟩

/-- For real h, a, u, c the two arrangements agree: a ring identity, read on the extended reals. -/
theorem blend_real (h a u c : ℝ) :
    (h : EReal) + ((a : EReal) * (u : EReal)) * ((c : EReal) - (h : EReal))
      = (1 - (a : EReal) * (u : EReal)) * (h : EReal) + ((a : EReal) * (u : EReal)) * (c : EReal) := by
  have e : ((h + (a * u) * (c - h) : ℝ) : EReal) = (((1 - a * u) * h + (a * u) * c : ℝ) : EReal) := by
    congr 1; ring
  push_cast at e
  exact e

/-- Where the state and the attention score are real numbers, the two arrangements of the new state are equal. -/
theorem moved_eq_mixed (x h : Rows.Idx → EReal) (a : Col.Idx → EReal) (wux : Weights.Idx → EReal) (bu : Bias.Idx → EReal) (wuh : Weights.Idx → EReal)
    (wrx : Weights.Idx → EReal) (br : Bias.Idx → EReal) (wrh : Weights.Idx → EReal)
    (wcx : Weights.Idx → EReal) (bc : Bias.Idx → EReal) (wch : Weights.Idx → EReal)
    (hh : ∀ y, ∃ r : ℝ, h y = (r : EReal)) (ha : ∀ y, ∃ r : ℝ, a y = (r : EReal)) :
    moved x h a wux bu wuh wrx br wrh wcx bc wch = mixed x h a wux bu wuh wrx br wrh wcx bc wch := by
  funext y
  obtain ⟨hr, hhr⟩ := hh (ix2 (y 0) (y 1))
  obtain ⟨ar, har⟩ := ha (ix2 (y 0) 0)
  obtain ⟨ur, hur⟩ := logistic_real (pre x h wux bu wuh (y 0) (y 1))
  obtain ⟨cr, hcr⟩ := tanh_real (dot x wcx (y 0) (y 1) + bc (ix1 (y 1)) + Ideal.logistic (pre x h wrx br wrh (y 0) (y 1)) * dot h wch (y 0) (y 1))
  unfold moved mixed step candidate
  rw [hhr, har, hur, hcr]
  exact blend_real hr ar ur cr

end Cert.CellSpec

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.CellPayload.lean ====
/-
  One body execution of the gated recurrent cell, read at one entry of its output tile.

  The body loads a 1024-row tile of the inputs (v0) and of the state (v1), the tile's attention column (v2), the two
  512×1536 weight matrices (v5 for the inputs, v8 for the state: the update, reset and candidate weights side by side) and
  the 1536-long bias (v11: the three biases end to end). It forms the two products v0·v5 and v1·v8 once, cuts each into its
  three 512-column gate slices, adds the bias slices, and blends. Read at row p and unit q this is, with
  X(c) = Σ_k v0(p,k)·v5(k,c) and H(c) = Σ_k v1(p,k)·v8(k,c) for a column c of the wide matrices,
      u = logistic(X(q) + v11(q) + H(q)),  r = logistic(X(q+512) + v11(q+512) + H(q+512)),
      c = tanh(X(q+1024) + v11(q+1024) + r·H(q+1024)),     result = v1(p,q) + (v2(p)·u)·(c − v1(p,q)).
  When the tiles are the corresponding rows of the whole arrays and the wide matrices' column blocks are the three gates'
  weights, that is the specification's new state at the tile's row of the whole array.
-/
import proofs.«116195_j32049045963131_2_alg».proof.Proof.Gen.KernelIdeal.Skeleton
import proofs.«116195_j32049045963131_2_alg».proof.Proof.CellSpec
import proofs.«116195_j32049045963131_2_alg».proof.Proof.LibPlainMatmul
import Idealize.ShloMosaic.Lib.Pipeline.Value
import Idealize.ShloMosaic.Lib.ValueIdx
import Idealize.ShloMosaic.Lib.ValueLayout

noncomputable section

namespace Cert.KernelIdeal.CellTile

open Idealize.ShloMosaic Idealize.ShloMosaic.ValueIdx Cert.KernelIdeal Cert.KernelIdeal.Gen

/-! ## Three small layout readings -/

section Layout
variable {α : Type}

/-- An `[a, 1]` column broadcast to `[a, b]` reads, at `(p, c)`, the column's entry of row `p`. -/
theorem column_broadcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cut from `o` reads, at `j`, the source at `k = o + j`. -/
theorem vector_slice_apply {n m : ℕ} (o : ℕ) (X : (⟨1, ![n]⟩ : Shape).Idx → α) (h : (⟨1, ![n]⟩ : Shape).Slices ![o] ⟨1, ![m]⟩)
    (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- A length-`b` vector viewed as a `1×b` row reads, at `(0, c)`, the vector at `c`. -/
theorem vector_as_row_apply {b : ℕ} (v : (⟨1, ![b]⟩ : Shape).Idx → α) (h : (⟨1, ![b]⟩ : Shape).ShapeCasts ⟨2, ![1, b]⟩) (c : Fin b) :
    shapeCast ⟨2, ![1, b]⟩ v h (ix2 (0 : Fin 1) c) = v (ix1 c) := by
  refine shapeCast_apply v h _ _ ?_
  rw [Shape.rowMajor_val_one, Shape.rowMajor_val_two]
  show c.val = 0 * b + c.val
  omega

end Layout

/-! ## The body's intermediate arrays, as functions of what it loaded -/

/-- A tile times a wide weight matrix: the three gates' projections side by side. -/
abbrev wide (t : Vec Ideal S1024x512 .f32) (w : Vec Ideal S512x1536 .bf16) : FVec Ideal S1024x1536 .f32 :=
  matmul dot_S1024x512_S512x1536_S1024x1536_1_0_0_1_n_n none (truncf .bf16 t bitsLt_bf16_f32 : FVec Ideal S1024x512 .bf16)
    (shapeCast S512x1536 w shapeCasts_S512x1536_S512x1536 : FVec Ideal S512x1536 .bf16) (constant (F := Ideal) S1024x1536 .f32 0x00000000#32)

/-- The bias slice from `off`, as a row repeated over the tile's 1024 rows. -/
abbrev biasRows (b : Vec Ideal S1536 .f32) (off : ℕ) (hs : S1536.Slices ![off] S512) : FVec Ideal S1024x512 .f32 :=
  broadcastTo S1024x512 (shapeCast S1x512 (extractStridedSlice S512 ![off] (shapeCast S1536 b shapeCasts_S1536_S1536) hs)
    shapeCasts_S512_S1x512) broadcasts_S1x512_S1024x512

/-- Columns `off … off+511` of a wide product, at `(p, q)`: row `p` of the tile against column `off + q` of the weights. -/
theorem wide_slice_apply (t : Vec Ideal S1024x512 .f32) (w : Vec Ideal S512x1536 .bf16) (off : ℕ)
    (hs : S1024x1536.Slices ![0, off] S1024x512) (p : Fin 1024) (q : Fin 512) (c : Fin 1536) (hc : c.val = off + q.val) :
    extractStridedSlice S1024x512 ![0, off] (wide t w) hs (ix2 p q) = ∑ k : Fin 512, t (ix2 p k) * w (ix2 k c) := by
  refine (slice2_axis1_apply off (wide t w) hs p q c hc).trans ?_
  unfold wide
  rw [shapeCast_self]
  exact PlainMatmul.matmul_zero_apply dot_S1024x512_S512x1536_S1024x1536_1_0_0_1_n_n rfl rfl rfl rfl rfl rfl none
    (truncf .bf16 t bitsLt_bf16_f32 : FVec Ideal S1024x512 .bf16) (w : FVec Ideal S512x1536 .bf16) p c

/-- The bias rows from `off`, at `(p, q)`: the bias at `off + q`. -/
theorem biasRows_apply (b : Vec Ideal S1536 .f32) (off : ℕ) (hs : S1536.Slices ![off] S512)
    (p : Fin 1024) (q : Fin 512) (c : Fin 1536) (hc : c.val = off + q.val) :
    biasRows b off hs (ix2 p q) = b (ix1 c) := by
  unfold biasRows
  rw [shapeCast_self]
  exact (broadcastTo_1b_ab_apply _ _ p q).trans ((vector_as_row_apply _ _ q).trans (vector_slice_apply off b hs q c hc))

/-! ## The payload at an entry -/

/-- Column `c` of the tile's projection through a wide weight matrix, on row `p`. -/
def proj (t : Vec Ideal S1024x512 .f32) (w : Vec Ideal S512x1536 .bf16) (p : Fin 1024) (c : Fin 1536) : EReal :=
  ∑ k : Fin 512, t (ix2 p k) * w (ix2 k c)

/-- The three columns of the wide matrices that unit `q` reads: its update, reset and candidate columns. -/
abbrev colU (q : Fin 512) : Fin 1536 := ⟨q.val, by have := q.isLt; omega⟩
abbrev colR (q : Fin 512) : Fin 1536 := ⟨512 + q.val, by have := q.isLt; omega⟩
abbrev colC (q : Fin 512) : Fin 1536 := ⟨1024 + q.val, by have := q.isLt; omega⟩

/-- What the body stores at row `p`, unit `q` of its tile, from what it loaded. -/
theorem payload_at (v0 v1 : Vec Ideal S1024x512 .f32) (v2 : Vec Ideal S1024x1 .f32) (v5 v8 : Vec Ideal S512x1536 .bf16)
    (v11 : Vec Ideal S1536 .f32) (p : Fin 1024) (q : Fin 512) :
    k0_pay1 v0 v1 v2 v5 v8 v11 (ix2 p q)
      = v1 (ix2 p q)
        + (v2 (ix2 p (0 : Fin 1)) * Ideal.logistic (proj v0 v5 p (colU q) + v11 (ix1 (colU q)) + proj v1 v8 p (colU q)))
          * (Ideal.tanh (proj v0 v5 p (colC q) + v11 (ix1 (colC q))
              + Ideal.logistic (proj v0 v5 p (colR q) + v11 (ix1 (colR q)) + proj v1 v8 p (colR q)) * proj v1 v8 p (colC q))
            - v1 (ix2 p q)) := by
  have eA := column_broadcast_apply v2 broadcasts_S1024x1_S1024x512 p q
  have eXu := wide_slice_apply v0 v5 0 slices_S1024x1536_o0_0_S1024x512 p q (colU q) (by show q.val = 0 + q.val; omega)
  have eXr := wide_slice_apply v0 v5 512 slices_S1024x1536_o0_512_S1024x512 p q (colR q) rfl
  have eXc := wide_slice_apply v0 v5 1024 slices_S1024x1536_o0_1024_S1024x512 p q (colC q) rfl
  have eHu := wide_slice_apply v1 v8 0 slices_S1024x1536_o0_0_S1024x512 p q (colU q) (by show q.val = 0 + q.val; omega)
  have eHr := wide_slice_apply v1 v8 512 slices_S1024x1536_o0_512_S1024x512 p q (colR q) rfl
  have eHc := wide_slice_apply v1 v8 1024 slices_S1024x1536_o0_1024_S1024x512 p q (colC q) rfl
  have eBu := biasRows_apply v11 0 slices_S1536_o0_S512 p q (colU q) (by show q.val = 0 + q.val; omega)
  have eBr := biasRows_apply v11 512 slices_S1536_o512_S512 p q (colR q) rfl
  have eBc := biasRows_apply v11 1024 slices_S1536_o1024_S512 p q (colC q) rfl
  unfold proj
  rw [← eA, ← eXu, ← eXr, ← eXc, ← eHu, ← eHr, ← eHc, ← eBu, ← eBr, ← eBc]
  rfl

/-! ## The payload is the specification's new state on the tile's row -/

open Cert.CellSpec in
/-- If the loaded tiles are row `P` of the inputs, of the state and of the attention column, and the wide matrices' and the
    bias's three blocks are the three gates' weights and biases, the body stores the new state of row `P`, unit `q`. -/
theorem payload_is_moved (x h : Rows.Idx → EReal) (a : Col.Idx → EReal)
    (wux : Weights.Idx → EReal) (bu : Bias.Idx → EReal) (wuh : Weights.Idx → EReal)
    (wrx : Weights.Idx → EReal) (br : Bias.Idx → EReal) (wrh : Weights.Idx → EReal)
    (wcx : Weights.Idx → EReal) (bc : Bias.Idx → EReal) (wch : Weights.Idx → EReal)
    (v0 v1 : Vec Ideal S1024x512 .f32) (v2 : Vec Ideal S1024x1 .f32) (v5 v8 : Vec Ideal S512x1536 .bf16) (v11 : Vec Ideal S1536 .f32)
    (P : Fin 32768) (p : Fin 1024) (q : Fin 512)
    (h0 : ∀ k : Fin 512, v0 (ix2 p k) = x (ix2 P k)) (h1 : ∀ k : Fin 512, v1 (ix2 p k) = h (ix2 P k))
    (h2 : v2 (ix2 p (0 : Fin 1)) = a (ix2 P (0 : Fin 1)))
    (h5u : ∀ (k j : Fin 512), v5 (ix2 k (colU j)) = wux (ix2 k j)) (h5r : ∀ (k j : Fin 512), v5 (ix2 k (colR j)) = wrx (ix2 k j))
    (h5c : ∀ (k j : Fin 512), v5 (ix2 k (colC j)) = wcx (ix2 k j))
    (h8u : ∀ (k j : Fin 512), v8 (ix2 k (colU j)) = wuh (ix2 k j)) (h8r : ∀ (k j : Fin 512), v8 (ix2 k (colR j)) = wrh (ix2 k j))
    (h8c : ∀ (k j : Fin 512), v8 (ix2 k (colC j)) = wch (ix2 k j))
    (hbu : ∀ j : Fin 512, v11 (ix1 (colU j)) = bu (ix1 j)) (hbr : ∀ j : Fin 512, v11 (ix1 (colR j)) = br (ix1 j))
    (hbc : ∀ j : Fin 512, v11 (ix1 (colC j)) = bc (ix1 j)) :
    k0_pay1 v0 v1 v2 v5 v8 v11 (ix2 p q) = moved x h a wux bu wuh wrx br wrh wcx bc wch (ix2 P q) := by
  rw [payload_at]
  unfold proj
  simp only [h0, h1, h2, h5u, h5r, h5c, h8u, h8r, h8c, hbu, hbr, hbc]
  rfl

end Cert.KernelIdeal.CellTile

end
-- ==== Proof.CellTilesRows.lean ====
/-
  Rows of the tiles are rows of the whole arrays.

  The kernel runs over 32 grid points; point t is handed rows 1024·t … 1024·t + 1023 of the inputs, of the state and of the
  attention column, and writes the same rows of the result. So row p of grid point t's tile of any of these four windows is
  row 1024·t + p of the whole array, the column unchanged: a block's coordinate on an axis is its block index on that axis
  times the block's size there plus the coordinate inside the block, and the block index of these windows at point t is (t, 0).
-/
import proofs.«116195_j32049045963131_2_alg».proof.Proof.CellLaunchIdeal
import proofs.«116195_j32049045963131_2_alg».proof.Proof.CellPayload
import Idealize.ShloMosaic.Lib.Pipeline.Value

set_option maxRecDepth 16384

noncomputable section

namespace Cert.KernelIdeal.CellRead

open Idealize.ShloMosaic Idealize.ShloMosaic.TcCoe Idealize.ShloMosaic.ValueIdx Idealize.SL.Sem
open Cert.KernelIdeal Cert.KernelIdeal.Gen Cert.KernelIdeal.Cell Cert.KernelIdeal.CellTile

variable (m : (ℓ : Loc nD τ sig) → Buf (Elt Ideal) ℓ) (c : Dev nD) (t : Fin cfg0.N)

/-- The row of the whole arrays that row `p` of grid point `t`'s tiles is: 1024·t + p. -/
abbrev rowOf (t : Fin cfg0.N) (p : Fin 1024) : Fin 32768 :=
  ⟨t.val * 1024 + p.val, by have hN : cfg0.N = 32 := N_0; have := t.isLt; have := p.isLt; omega⟩

/-- The block index of the inputs', the state's, the attention column's and the result's window at grid point `t` is (t, 0). -/
theorem rows_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0 :=
  (by decide +kernel : ∀ t : Fin grid0.N, _)

/-- Row `p` of grid point `t`'s tile of the inputs is row 1024·t + p of the inputs. -/
theorem tile_inputs (p : Fin 1024) (k : Fin 512) :
    tile m c 0 t (ix2 p k) = m ((c : Thread nD τ).loc main_arg0) (ix2 (rowOf t p) k) := by
  obtain ⟨e00, e01, e10, e11, e20, e21, e60, e61⟩ := rows_index t
  unfold tile
  show entry m c main_arg0 (((cfg0.win 0).blk t).view.emb (ix2 p k)) = _
  rw [entry_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega
/-- Row `p` of grid point `t`'s tile of the state is row 1024·t + p of the state. -/
theorem tile_state (p : Fin 1024) (k : Fin 512) :
    tile m c 1 t (ix2 p k) = m ((c : Thread nD τ).loc main_arg1) (ix2 (rowOf t p) k) := by
  obtain ⟨e00, e01, e10, e11, e20, e21, e60, e61⟩ := rows_index t
  unfold tile
  show entry m c main_arg1 (((cfg0.win 1).blk t).view.emb (ix2 p k)) = _
  rw [entry_arg1]
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega
/-- Entry `p` of grid point `t`'s tile of the attention column is entry 1024·t + p of the column. -/
theorem tile_attention (p : Fin 1024) :
    tile m c 2 t (ix2 p (0 : Fin 1)) = m ((c : Thread nD τ).loc main_arg2) (ix2 (rowOf t p) (0 : Fin 1)) := by
  obtain ⟨e00, e01, e10, e11, e20, e21, e60, e61⟩ := rows_index t
  unfold tile
  show entry m c main_arg2 (((cfg0.win 2).blk t).view.emb (ix2 p (0 : Fin 1))) = _
  rw [entry_arg2]
  refine congrArg _ (funext fun a => Fin.ext ?_)
  match a with
  | ⟨0, _⟩ => show win0_2.index t (0 : Fin 2) * 1024 + 1 * p.val = t.val * 1024 + p.val; omega
  | ⟨1, _⟩ => show win0_2.index t (1 : Fin 2) * 1 + 1 * (0 : Fin 1).val = (0 : Fin 1).val; omega
/-- Entry (p, q) of grid point `t`'s output tile sits at (1024·t + p, q) of the result array. -/
theorem out_row (p : Fin 1024) (q : Fin 512) :
    ((cfg0.win 6).blk t).view.emb (ix2 p q) = ix2 (rowOf t p) q := by
  obtain ⟨e00, e01, e10, e11, e20, e21, e60, e61⟩ := rows_index t
  refine funext fun a => Fin.ext ?_
  match a with
  | ⟨0, _⟩ => show win0_6.index t (0 : Fin 2) * 1024 + 1 * p.val = t.val * 1024 + p.val; omega
  | ⟨1, _⟩ => show win0_6.index t (1 : Fin 2) * 512 + 1 * q.val = q.val; omega

end Cert.KernelIdeal.CellRead

end
-- ==== Proof.CellTilesWeights.lean ====
/-
  What the kernel's three weight windows hold. Before the launch the host lays the update, reset and candidate
  weights of the inputs side by side into one 512×1536 matrix (columns 0 … 511, 512 … 1023, 1024 … 1535) and narrows
  it; it does the same with the weights of the state; and it lays the three 512-long biases end to end into one
  1536-long vector. Windows 3, 4 and 5 hand every grid point block 0 of these arrays, which is the whole array, so a
  tile index is the array index. At the extended reals narrowing changes nothing. Hence: the tile read at column j,
  512 + j or 1024 + j is the update, reset or candidate piece read at column j.
-/
import proofs.«116195_j32049045963131_2_alg».proof.Proof.CellLaunchIdeal
import proofs.«116195_j32049045963131_2_alg».proof.Proof.CellPayload
import Idealize.ShloMosaic.Lib.Pipeline.Value

set_option maxRecDepth 16384

noncomputable section

namespace Cert.KernelIdeal.CellRead

open Idealize.ShloMosaic Idealize.ShloMosaic.TcCoe Idealize.ShloMosaic.ValueIdx Idealize.SL.Sem
open Cert.KernelIdeal Cert.KernelIdeal.Gen Cert.KernelIdeal.Cell Cert.KernelIdeal.CellTile

variable (m : (ℓ : Loc nD τ sig) → Buf (Elt Ideal) ℓ) (c : Dev nD) (t : Fin cfg0.N)

/-- A three-operand operation's result, with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

section Cat
variable {α : Type}

/-- Three 512×512 pieces side by side, read in the first 512 columns: the first piece. -/
theorem cat3_cols_0 (x0 x1 x2 : S512x512.Idx → α) (h : Shape.Concatenates [S512x512, S512x512, S512x512] S512x1536 1) (k j : Fin 512) :
    concatenate S512x1536 1 [⟨S512x512, x0⟩, ⟨S512x512, x1⟩, ⟨S512x512, x2⟩] h (ix2 k (colU j)) = x0 (ix2 k j) :=
  concatenate_apply_piece (t := S512x1536) (1 : Fin 2) [⟨S512x512, x0⟩, ⟨S512x512, x1⟩, ⟨S512x512, x2⟩] h (ix2 k (colU j))
    0 (by show (0 : Nat) < 3; omega) S512x512 x0 rfl rfl 0 rfl (ix2 k j)
    (fun b hb => match b, hb with | ⟨0, _⟩, _ => rfl | ⟨1, _⟩, hb => absurd rfl hb)
    (by show 0 + j.val = j.val; omega)

/-- Three 512×512 pieces side by side, read in columns 512 … 1023: the second piece. -/
theorem cat3_cols_1 (x0 x1 x2 : S512x512.Idx → α) (h : Shape.Concatenates [S512x512, S512x512, S512x512] S512x1536 1) (k j : Fin 512) :
    concatenate S512x1536 1 [⟨S512x512, x0⟩, ⟨S512x512, x1⟩, ⟨S512x512, x2⟩] h (ix2 k (colR j)) = x1 (ix2 k j) :=
  concatenate_apply_piece (t := S512x1536) (1 : Fin 2) [⟨S512x512, x0⟩, ⟨S512x512, x1⟩, ⟨S512x512, x2⟩] h (ix2 k (colR j))
    1 (by show (1 : Nat) < 3; omega) S512x512 x1 rfl rfl 512 rfl (ix2 k j)
    (fun b hb => match b, hb with | ⟨0, _⟩, _ => rfl | ⟨1, _⟩, hb => absurd rfl hb)
    rfl

/-- Three 512×512 pieces side by side, read in columns 1024 … 1535: the third piece. -/
theorem cat3_cols_2 (x0 x1 x2 : S512x512.Idx → α) (h : Shape.Concatenates [S512x512, S512x512, S512x512] S512x1536 1) (k j : Fin 512) :
    concatenate S512x1536 1 [⟨S512x512, x0⟩, ⟨S512x512, x1⟩, ⟨S512x512, x2⟩] h (ix2 k (colC j)) = x2 (ix2 k j) :=
  concatenate_apply_piece (t := S512x1536) (1 : Fin 2) [⟨S512x512, x0⟩, ⟨S512x512, x1⟩, ⟨S512x512, x2⟩] h (ix2 k (colC j))
    2 (by show (2 : Nat) < 3; omega) S512x512 x2 rfl rfl 1024 rfl (ix2 k j)
    (fun b hb => match b, hb with | ⟨0, _⟩, _ => rfl | ⟨1, _⟩, hb => absurd rfl hb)
    rfl

/-- Three 512-vectors end to end, read at an entry below 512: the first piece. -/
theorem cat3_vec_0 (x0 x1 x2 : S512.Idx → α) (h : Shape.Concatenates [S512, S512, S512] S1536 0) (j : Fin 512) :
    concatenate S1536 0 [⟨S512, x0⟩, ⟨S512, x1⟩, ⟨S512, x2⟩] h (ix1 (colU j)) = x0 (ix1 j) :=
  concatenate_apply_piece (t := S1536) (0 : Fin 1) [⟨S512, x0⟩, ⟨S512, x1⟩, ⟨S512, x2⟩] h (ix1 (colU j))
    0 (by show (0 : Nat) < 3; omega) S512 x0 rfl rfl 0 rfl (ix1 j)
    (fun b hb => match b, hb with | ⟨0, _⟩, hb => absurd rfl hb)
    (by show 0 + j.val = j.val; omega)

/-- Three 512-vectors end to end, read at an entry in 512 … 1023: the second piece. -/
theorem cat3_vec_1 (x0 x1 x2 : S512.Idx → α) (h : Shape.Concatenates [S512, S512, S512] S1536 0) (j : Fin 512) :
    concatenate S1536 0 [⟨S512, x0⟩, ⟨S512, x1⟩, ⟨S512, x2⟩] h (ix1 (colR j)) = x1 (ix1 j) :=
  concatenate_apply_piece (t := S1536) (0 : Fin 1) [⟨S512, x0⟩, ⟨S512, x1⟩, ⟨S512, x2⟩] h (ix1 (colR j))
    1 (by show (1 : Nat) < 3; omega) S512 x1 rfl rfl 512 rfl (ix1 j)
    (fun b hb => match b, hb with | ⟨0, _⟩, hb => absurd rfl hb)
    rfl

/-- Three 512-vectors end to end, read at an entry in 1024 … 1535: the third piece. -/
theorem cat3_vec_2 (x0 x1 x2 : S512.Idx → α) (h : Shape.Concatenates [S512, S512, S512] S1536 0) (j : Fin 512) :
    concatenate S1536 0 [⟨S512, x0⟩, ⟨S512, x1⟩, ⟨S512, x2⟩] h (ix1 (colC j)) = x2 (ix1 j) :=
  concatenate_apply_piece (t := S1536) (0 : Fin 1) [⟨S512, x0⟩, ⟨S512, x1⟩, ⟨S512, x2⟩] h (ix1 (colC j))
    2 (by show (2 : Nat) < 3; omega) S512 x2 rfl rfl 1024 rfl (ix1 j)
    (fun b hb => match b, hb with | ⟨0, _⟩, hb => absurd rfl hb)
    rfl
end Cat

/-! ## The three host-built arrays as the launch finds them -/

/-- The first weight matrix at the launch: arguments 3, 6, 9 side by side, narrowed. -/
theorem entry_v1 : (entry m c main_v1 : (⟨S512x1536, .bf16⟩ : BufTy).Contents (Elt Ideal))
    = truncf (F := Ideal) .bf16 (concatenate S512x1536 1 [⟨S512x512, m ((c : Thread nD τ).loc main_arg3)⟩, ⟨S512x512, m ((c : Thread nD τ).loc main_arg6)⟩, ⟨S512x512, m ((c : Thread nD τ).loc main_arg9)⟩] concatenates_S512x512_S512x512_S512x512_S512x1536_d1) bitsLt_bf16_f32 := by
  show StableHlo.after hostOps0 (fun b => m (c, b)) (Proc.devRef .tc main_v1) = _
  after_results
  rfl

/-- The second weight matrix at the launch: arguments 5, 8, 11 side by side, narrowed. -/
theorem entry_v3 : (entry m c main_v3 : (⟨S512x1536, .bf16⟩ : BufTy).Contents (Elt Ideal))
    = truncf (F := Ideal) .bf16 (concatenate S512x1536 1 [⟨S512x512, m ((c : Thread nD τ).loc main_arg5)⟩, ⟨S512x512, m ((c : Thread nD τ).loc main_arg8)⟩, ⟨S512x512, m ((c : Thread nD τ).loc main_arg11)⟩] concatenates_S512x512_S512x512_S512x512_S512x1536_d1) bitsLt_bf16_f32 := by
  show StableHlo.after hostOps0 (fun b => m (c, b)) (Proc.devRef .tc main_v3) = _
  simp only [StableHlo.after_cons, StableHlo.after_nil]
  repeat (first
    | rw [StableHlo.unary_result] | rw [nary3_result]
    | (rw [StableHlo.unary_result_ne]; rotate_left; decide)
    | (rw [StableHlo.nary_result_ne]; rotate_left; decide))
  rfl

/-- The bias at the launch: arguments 4, 7, 10 end to end. -/
theorem entry_v4 : (entry m c main_v4 : (⟨S1536, .f32⟩ : BufTy).Contents (Elt Ideal))
    = concatenate S1536 0 [⟨S512, m ((c : Thread nD τ).loc main_arg4)⟩, ⟨S512, m ((c : Thread nD τ).loc main_arg7)⟩, ⟨S512, m ((c : Thread nD τ).loc main_arg10)⟩] concatenates_S512_S512_S512_S1536_d0 := by
  show StableHlo.after hostOps0 (fun b => m (c, b)) (Proc.devRef .tc main_v4) = _
  simp only [StableHlo.after_cons, StableHlo.after_nil]
  repeat (first
    | rw [StableHlo.unary_result] | rw [nary3_result]
    | (rw [StableHlo.unary_result_ne]; rotate_left; decide)
    | (rw [StableHlo.nary_result_ne]; rotate_left; decide))
  rfl

/-! ## The windows' tiles are the whole arrays -/

/-- Window 3 hands every grid point block (0, 0) of its array, which is the whole array: a block index is the array index. -/
theorem emb3 (y : S512x1536.Idx) : ((cfg0.win 3).blk t).view.emb y = y := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 512 + 1 * (y 0).val = (y 0).val; omega
  | ⟨1, _⟩ => show win0_3.index t (1 : Fin 2) * 1536 + 1 * (y 1).val = (y 1).val; omega

/-- Window 4 likewise. -/
theorem emb4 (y : S512x1536.Idx) : ((cfg0.win 4).blk t).view.emb y = y := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 512 + 1 * (y 0).val = (y 0).val; omega
  | ⟨1, _⟩ => show win0_4.index t (1 : Fin 2) * 1536 + 1 * (y 1).val = (y 1).val; omega

/-- Window 5 hands every grid point block 0 of the bias, which is the whole bias. -/
theorem emb5 (y : S1536.Idx) : ((cfg0.win 5).blk t).view.emb y = y := by
  have e0 := (by decide +kernel : ∀ t : Fin grid0.N, win0_5.index t (0 : Fin 1) = 0) t
  funext a; apply Fin.ext
  match a with
  | ⟨0, _⟩ => show win0_5.index t (0 : Fin 1) * 1536 + 1 * (y 0).val = (y 0).val; omega

/-- Window 3's tile is the first weight matrix as the launch finds it. -/
theorem tile3 (y : S512x1536.Idx) : tile m c 3 t y = entry m c main_v1 y := by
  unfold tile
  show entry m c main_v1 (((cfg0.win 3).blk t).view.emb y) = _
  rw [emb3]

/-- Window 4's tile is the second weight matrix as the launch finds it. -/
theorem tile4 (y : S512x1536.Idx) : tile m c 4 t y = entry m c main_v3 y := by
  unfold tile
  show entry m c main_v3 (((cfg0.win 4).blk t).view.emb y) = _
  rw [emb4]

/-- Window 5's tile is the bias as the launch finds it. -/
theorem tile5 (y : S1536.Idx) : tile m c 5 t y = entry m c main_v4 y := by
  unfold tile
  show entry m c main_v4 (((cfg0.win 5).blk t).view.emb y) = _
  rw [emb5]

/-- The input-side weight tile, update columns: the update weights of the inputs. -/
theorem tile_wx_update (k j : Fin 512) : tile m c 3 t (ix2 k (colU j)) = m ((c : Thread nD τ).loc main_arg3) (ix2 k j) := by
  rw [tile3, entry_v1, truncf_apply]; exact cat3_cols_0 _ _ _ _ k j
/-- The input-side weight tile, reset columns: the reset weights of the inputs. -/
theorem tile_wx_reset (k j : Fin 512) : tile m c 3 t (ix2 k (colR j)) = m ((c : Thread nD τ).loc main_arg6) (ix2 k j) := by
  rw [tile3, entry_v1, truncf_apply]; exact cat3_cols_1 _ _ _ _ k j
/-- The input-side weight tile, candidate columns: the candidate weights of the inputs. -/
theorem tile_wx_candidate (k j : Fin 512) : tile m c 3 t (ix2 k (colC j)) = m ((c : Thread nD τ).loc main_arg9) (ix2 k j) := by
  rw [tile3, entry_v1, truncf_apply]; exact cat3_cols_2 _ _ _ _ k j
/-- The state-side weight tile, update columns: the update weights of the state. -/
theorem tile_wh_update (k j : Fin 512) : tile m c 4 t (ix2 k (colU j)) = m ((c : Thread nD τ).loc main_arg5) (ix2 k j) := by
  rw [tile4, entry_v3, truncf_apply]; exact cat3_cols_0 _ _ _ _ k j
/-- The state-side weight tile, reset columns: the reset weights of the state. -/
theorem tile_wh_reset (k j : Fin 512) : tile m c 4 t (ix2 k (colR j)) = m ((c : Thread nD τ).loc main_arg8) (ix2 k j) := by
  rw [tile4, entry_v3, truncf_apply]; exact cat3_cols_1 _ _ _ _ k j
/-- The state-side weight tile, candidate columns: the candidate weights of the state. -/
theorem tile_wh_candidate (k j : Fin 512) : tile m c 4 t (ix2 k (colC j)) = m ((c : Thread nD τ).loc main_arg11) (ix2 k j) := by
  rw [tile4, entry_v3, truncf_apply]; exact cat3_cols_2 _ _ _ _ k j
/-- The bias tile, update entries: the update bias. -/
theorem tile_bias_update (j : Fin 512) : tile m c 5 t (ix1 (colU j)) = m ((c : Thread nD τ).loc main_arg4) (ix1 j) := by
  rw [tile5, entry_v4]; exact cat3_vec_0 _ _ _ _ j
/-- The bias tile, reset entries: the reset bias. -/
theorem tile_bias_reset (j : Fin 512) : tile m c 5 t (ix1 (colR j)) = m ((c : Thread nD τ).loc main_arg7) (ix1 j) := by
  rw [tile5, entry_v4]; exact cat3_vec_1 _ _ _ _ j
/-- The bias tile, candidate entries: the candidate bias. -/
theorem tile_bias_candidate (j : Fin 512) : tile m c 5 t (ix1 (colC j)) = m ((c : Thread nD τ).loc main_arg10) (ix1 j) := by
  rw [tile5, entry_v4]; exact cat3_vec_2 _ _ _ _ j

end Cert.KernelIdeal.CellRead

end
-- ==== Proof.CellArray.lean ====
/-
  The result array of the gated recurrent cell's kernel, as one function of the twelve argument arrays.

  Grid point t writes back, over rows 1024·t … 1024·t+1023 of the result, what its body stored in the output tile; by the
  payload reading that is the specification's new state on those rows. The 32 tiles cover all 32768 rows, so after the run
  the result array is the specification's new state (in the arrangement h + (a·u)·(c − h)) at every index, and the argument
  arrays are as they were.
-/
import proofs.«116195_j32049045963131_2_alg».proof.Proof.CellLaunchIdeal
import proofs.«116195_j32049045963131_2_alg».proof.Proof.CellPayload
import proofs.«116195_j32049045963131_2_alg».proof.Proof.CellTilesRows
import proofs.«116195_j32049045963131_2_alg».proof.Proof.CellTilesWeights
import proofs.«116195_j32049045963131_2_alg».proof.Proof.CellSpec
import Idealize.ShloMosaic.Lib.Pipeline.Value

set_option maxRecDepth 16384

noncomputable section

namespace Cert.KernelIdeal.CellValue

open Idealize.ShloMosaic Idealize.ShloMosaic.TcCoe Idealize.ShloMosaic.ValueIdx Idealize.SL.Sem
open Cert.KernelIdeal Cert.KernelIdeal.Gen Cert.KernelIdeal.Cell Cert.KernelIdeal.CellTile Cert.KernelIdeal.CellRead

variable (m : (ℓ : Loc nD τ sig) → Buf (Elt Ideal) ℓ) (ρ : Dev nD → PrngReg)

/-- The specification's new state of the launch memory's twelve argument arrays on core `c`. -/
abbrev newState (c : Dev nD) : S32768x512.Idx → EReal :=
  Cert.CellSpec.moved (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem origin2 : (![0, 0] : Fin 2 → Nat) = fun _ => 0 := funext fun a => by fin_cases a <;> rfl
theorem origin1 : (![0] : Fin 1 → Nat) = fun _ => 0 := funext fun a => by fin_cases a; rfl

/-- What grid point `t` writes back is tile `t` of the specification's new state. -/
theorem written_is_newState (c : Dev nD) (t : Fin cfg0.N) :
    (pipe m 0 c).flushed 6 t = ((cfg0.win 6).blk t).view.read (Elt Ideal) (newState m c) := by
  show (cfg0.win 6).cut (grid0.coords t) ((pipe m 0 c).after 6 t) = _
  rw [after6]
  unfold newRows
  rw [View.canon_unit_zero origin2]
  simp only [View.ld_unit_zero (S := S1024x512) origin2, View.ld_unit_zero (S := S1024x1) origin2,
    View.ld_unit_zero (S := S512x1536) origin2, View.ld_unit_zero (S := S1536) origin1]
  funext j
  obtain ⟨p, q, rfl⟩ : ∃ (p : Fin 1024) (q : Fin 512), j = ix2 p q := ⟨j 0, j 1, eq_ix2 j⟩
  show k0_pay1 (tile m c 0 t) (tile m c 1 t) (tile m c 2 t) (tile m c 3 t) (tile m c 4 t) (tile m c 5 t) (ix2 p q)
    = newState m c (((cfg0.win 6).blk t).view.emb (ix2 p q))
  refine Eq.trans ?_ (congrArg (newState m c) (out_row t p q)).symm
  exact payload_is_moved _ _ _ _ _ _ _ _ _ _ _ _ (tile m c 0 t) (tile m c 1 t) (tile m c 2 t) (tile m c 3 t) (tile m c 4 t) (tile m c 5 t)
    (rowOf t p) p q (tile_inputs m c t p) (tile_state m c t p) (tile_attention m c t p)
    (tile_wx_update m c t) (tile_wx_reset m c t) (tile_wx_candidate m c t)
    (tile_wh_update m c t) (tile_wh_reset m c t) (tile_wh_candidate m c t)
    (tile_bias_update m c t) (tile_bias_reset m c t) (tile_bias_candidate m c t)

/-- Every block of rows is some grid point's. -/
theorem tile_of_rows : ∀ q0 : Fin 32, ∃ t : Fin cfg0.N, win0_6.index t = ![q0.val, 0] :=
  (by decide +kernel : ∀ q0 : Fin 32, ∃ t : Fin grid0.N, win0_6.index t = ![q0.val, 0])

/-- An index of the result is in grid point `t`'s tile iff each coordinate is in the tile's range on its axis. -/
theorem mem_tile (t : Fin cfg0.N) (i : S32768x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v5).slice (win0_6.rect t)).set ↔ _
  rw [View.set_slice_whole, Rect.mem_set_unit]
  exact Iff.rfl

/-- Every index of the result lies in the tile of the grid point that owns its row: row r belongs to point r / 1024. -/
theorem every_row_written (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  obtain ⟨t, ht⟩ := tile_of_rows ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_tile]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 512 ≤ (i 1).val ∧ (i 1).val < win0_6.index t (1 : Fin 2) * 512 + 512
    omega

/-- After the run the result array is the specification's new state. -/
theorem result_is_newState (c : Dev nD) : (pipe m 0 c).arrAt 6 cfg0.N = newState m c :=
  (pipe m 0 c).arrAt_eq_of_cover 6 (newState m c) (fun t _ => written_is_newState m c t) every_row_written

/-- Every weakly fair execution of the idealized kernel terminates without a fault, with the result array at the
    specification's new state and the twelve argument arrays unchanged. -/
theorem run : θ_run defs (onTc (τ := τ) (main (F := Ideal))) ⟨m, fun _ => 0, ρ⟩ (fun r => ∀ c : Dev nD,
      r.2.mem ((c.tc : Thread nD τ).loc main_v5) = newState m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).1 6).trans (result_is_newState m c), args_of_post m (pipe m) (pipe_A m) r h c⟩)
    (run_main m ρ)

end Cert.KernelIdeal.CellValue

end
-- ==== Proof.ReferenceCell.lean ====
import proofs.«116195_j32049045963131_2_alg».proof.Proof.Gen.ReferenceIdeal.Run
import proofs.«116195_j32049045963131_2_alg».proof.Proof.Gen.ReferenceIdeal.Read
import proofs.«116195_j32049045963131_2_alg».proof.Proof.CellSpec

/-
  The reference program, read one stage at a time at an index (p, q), is the attention-gated recurrent cell's new state
  in the arrangement (1 − a·u)·h + (a·u)·c: every matrix product is the sum over k of row p against column q, every bias
  is read at q, the attention column at row p, and the reference spells the logistic function as 1 / (1 + exp(−z)).
-/

noncomputable section

namespace Cert.ReferenceIdeal.RefCell
open Cert.ReferenceIdeal Cert.ReferenceIdeal.Gen Cert.ReferenceIdeal.Read Idealize.ShloMosaic Idealize.ShloMosaic.ValueIdx

/-- The reference's result, stage by stage, is the cell's new state in the arrangement (1 − a·u)·h + (a·u)·c. -/
theorem reference_mixed (x0 x1 : (⟨S32768x512, .f32⟩ : BufTy).Contents (Elt Ideal)) (x2 : (⟨S32768x1, .f32⟩ : BufTy).Contents (Elt Ideal)) (x3 : (⟨S512x512, .f32⟩ : BufTy).Contents (Elt Ideal)) (x4 : (⟨S512, .f32⟩ : BufTy).Contents (Elt Ideal)) (x5 x6 : (⟨S512x512, .f32⟩ : BufTy).Contents (Elt Ideal)) (x7 : (⟨S512, .f32⟩ : BufTy).Contents (Elt Ideal)) (x8 x9 : (⟨S512x512, .f32⟩ : BufTy).Contents (Elt Ideal)) (x10 : (⟨S512, .f32⟩ : BufTy).Contents (Elt Ideal)) (x11 : (⟨S512x512, .f32⟩ : BufTy).Contents (Elt Ideal)) :
    val_main_v38 (F := Ideal) x0 x1 x2 x3 x4 x5 x6 x7 x8 x9 x10 x11
      = Cert.CellSpec.mixed x0 x1 x2 x3 x4 x5 x6 x7 x8 x9 x10 x11 := by
  funext i
  obtain ⟨p, q, rfl⟩ : ∃ (p : Fin 32768) (q : Fin 512), i = ix2 p q := ⟨i 0, i 1, eq_ix2 i⟩
  -- a product's left operand is read at (p, k), its right operand at (k, q)
  have hl0 : ∀ k : Fin 512, lidx_main_v0 (ix2 p q) k = ix2 p k := fun k => funext fun a => Fin.ext (by
    match a with | ⟨0, _⟩ => rfl | ⟨1, _⟩ => rfl)
  have hr0 : ∀ k : Fin 512, ridx_main_v0 (ix2 p q) k = ix2 k q := fun k => funext fun a => Fin.ext (by
    match a with | ⟨0, _⟩ => rfl | ⟨1, _⟩ => rfl)
  have hl4 : ∀ k : Fin 512, lidx_main_v4 (ix2 p q) k = ix2 p k := fun k => funext fun a => Fin.ext (by
    match a with | ⟨0, _⟩ => rfl | ⟨1, _⟩ => rfl)
  have hr4 : ∀ k : Fin 512, ridx_main_v4 (ix2 p q) k = ix2 k q := fun k => funext fun a => Fin.ext (by
    match a with | ⟨0, _⟩ => rfl | ⟨1, _⟩ => rfl)
  have hl12 : ∀ k : Fin 512, lidx_main_v12 (ix2 p q) k = ix2 p k := fun k => funext fun a => Fin.ext (by
    match a with | ⟨0, _⟩ => rfl | ⟨1, _⟩ => rfl)
  have hr12 : ∀ k : Fin 512, ridx_main_v12 (ix2 p q) k = ix2 k q := fun k => funext fun a => Fin.ext (by
    match a with | ⟨0, _⟩ => rfl | ⟨1, _⟩ => rfl)
  have hl16 : ∀ k : Fin 512, lidx_main_v16 (ix2 p q) k = ix2 p k := fun k => funext fun a => Fin.ext (by
    match a with | ⟨0, _⟩ => rfl | ⟨1, _⟩ => rfl)
  have hr16 : ∀ k : Fin 512, ridx_main_v16 (ix2 p q) k = ix2 k q := fun k => funext fun a => Fin.ext (by
    match a with | ⟨0, _⟩ => rfl | ⟨1, _⟩ => rfl)
  have hl24 : ∀ k : Fin 512, lidx_main_v24 (ix2 p q) k = ix2 p k := fun k => funext fun a => Fin.ext (by
    match a with | ⟨0, _⟩ => rfl | ⟨1, _⟩ => rfl)
  have hr24 : ∀ k : Fin 512, ridx_main_v24 (ix2 p q) k = ix2 k q := fun k => funext fun a => Fin.ext (by
    match a with | ⟨0, _⟩ => rfl | ⟨1, _⟩ => rfl)
  have hl28 : ∀ k : Fin 512, lidx_main_v28 (ix2 p q) k = ix2 p k := fun k => funext fun a => Fin.ext (by
    match a with | ⟨0, _⟩ => rfl | ⟨1, _⟩ => rfl)
  have hr28 : ∀ k : Fin 512, ridx_main_v28 (ix2 p q) k = ix2 k q := fun k => funext fun a => Fin.ext (by
    match a with | ⟨0, _⟩ => rfl | ⟨1, _⟩ => rfl)
  -- a bias is read at q, the attention column at (p, 0)
  have hb1 : idx_main_v1 (idx_main_v2 (ix2 p q)) = ix1 q := funext fun a => Fin.ext (by
    match a with | ⟨0, _⟩ => rfl)
  have hb13 : idx_main_v13 (idx_main_v14 (ix2 p q)) = ix1 q := funext fun a => Fin.ext (by
    match a with | ⟨0, _⟩ => rfl)
  have hb25 : idx_main_v25 (idx_main_v26 (ix2 p q)) = ix1 q := funext fun a => Fin.ext (by
    match a with | ⟨0, _⟩ => rfl)
  have ha : idx_main_v32 (ix2 p q) = ix2 p (0 : Fin 1) := funext fun a => Fin.ext (by
    match a with | ⟨0, _⟩ => rfl | ⟨1, _⟩ => rfl)
  simp only [val_main_v38_apply, val_main_v37_apply, val_main_v36_apply, val_main_v35_apply, val_main_v34_apply, val_main_cst_3_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_cst_2_apply, val_main_v21_apply, val_main_v20_apply, val_main_cst_1_apply, val_main_v19_apply, val_main_v18_apply, val_main_v17_apply, val_main_v16_apply, val_main_v15_apply, val_main_v14_apply, val_main_v13_apply, val_main_v12_apply, val_main_v11_apply, val_main_v10_apply, val_main_cst_0_apply, val_main_v9_apply, val_main_v8_apply, val_main_cst_apply, val_main_v7_apply, val_main_v6_apply, val_main_v5_apply, val_main_v4_apply, val_main_v3_apply, val_main_v2_apply, val_main_v1_apply, val_main_v0_apply]
  simp only [hl0, hr0, hl4, hr4, hl12, hr12, hl16, hr16, hl24, hr24, hl28, hr28, hb1, hb13, hb25, ha,
    Ideal.addf_def, Ideal.mulf_def, Ideal.subf_def, Ideal.hostDivf_def, Ideal.hostNegf_def, Ideal.negf_def,
    Ideal.hostUnary_exp_def, Ideal.hostUnary_tanh_def, Ideal.ofBits_def, Cert.CellSpec.ofBits_one]
  unfold Cert.CellSpec.mixed Cert.CellSpec.step Cert.CellSpec.candidate Cert.CellSpec.pre Cert.CellSpec.dot Ideal.logistic
  rfl

end Cert.ReferenceIdeal.RefCell

end
-- ==== Proof.FiniteArgs.lean ====
/-
  The finiteness precondition read back at the extended reals. The precondition tests, for each of the twelve
  argument arrays, that every entry x satisfies |x| < +∞, and conjoins the twelve tests. Here a float is an
  extended real, |x| is max x (-x), and the pattern 0x7F800000 denotes ⊤; so |x| < ⊤ excludes x = ⊥ and x = ⊤,
  and what is left is a real number. We extract this for the second argument (the state) and the third (the
  attention column).
-/
import Idealize.ShloMosaic.Lib.ReduceAll
import Idealize.ShloMosaic.Lib.ValueIdx
import Idealize.ShloMosaic.PureOps.Ideal
import proofs.«116195_j32049045963131_2_alg».proof.Pre_finite_inputs

noncomputable section

namespace Cert.FiniteArgs
open Idealize.ShloMosaic Cert.Pre_finite_inputs

/-- An extended real whose absolute value lies strictly below +∞ is a real number: at ⊥ and at ⊤ the absolute
    value max x (-x) is ⊤, which is not below ⊤. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- If every argument passes the finiteness test, the state and the attention column hold real numbers at every index. -/
theorem state_and_attention_real [Cert.Pre_finite_inputs.Facts]
    (a0 a1 : FVec Ideal S32768x512 .f32) (a2 : FVec Ideal S32768x1 .f32) (a3 : FVec Ideal S512x512 .f32) (a4 : FVec Ideal S512 .f32) (a5 a6 : FVec Ideal S512x512 .f32) (a7 : FVec Ideal S512 .f32) (a8 a9 : FVec Ideal S512x512 .f32) (a10 : FVec Ideal S512 .f32) (a11 : FVec Ideal S512x512 .f32)
    (h : Cert.Pre_finite_inputs.fn (F := Ideal) a0 a1 a2 a3 a4 a5 a6 a7 a8 a9 a10 a11 = (fun _ => 1#1)) :
    (∀ y, ∃ r : ℝ, a1 y = (r : EReal)) ∧ (∀ y, ∃ r : ℝ, a2 y = (r : EReal)) := by
  -- the result of the test has rank 0, hence exactly one index
  haveI : Subsingleton S_.Idx := ⟨fun a b => funext fun d => d.elim0⟩
  have e := congrFun h ValueIdx.ix0
  unfold fn fn_part1 fn_part2 fn_part3 at e
  -- the result is a left-nested conjunction of the twelve tests; the second and third conjuncts are ours
  simp only [andi, IntOp.andi_eq_one] at e
  obtain ⟨⟨⟨⟨⟨⟨⟨⟨⟨⟨⟨-, h1⟩, h2⟩, -⟩, -⟩, -⟩, -⟩, -⟩, -⟩, -⟩, -⟩, -⟩ := e
  -- a conjunction over all entries that is 1 is 1 at each entry; each entry's test is |x| < ⊤
  refine ⟨fun y => real_of_abs_lt_top _ ?_, fun y => real_of_abs_lt_top _ ?_⟩
  · exact Host.reduce_andi_all _ _ _ _ _ h1 y
  · exact Host.reduce_andi_all _ _ _ _ _ h2 y

end Cert.FiniteArgs

end
-- ==== Proof.lean ====
/-
  The certificate of the attention-gated recurrent cell: the fused kernel against its jnp reference.

  Both programs compute, for every row i and unit j, the new state of a gated recurrent cell whose update gate is scaled
  by an attention score: with u and r the logistic update and reset gates and c the tanh candidate, the kernel stores
  h + (a·u)·(c − h) and the reference (1 − a·u)·h + (a·u)·c. The kernel multiplies by the three gates' weights at once (the
  weight matrices side by side, one wide product per operand, cut back into three slices); the reference makes six
  separate products. On the extended reals every product and sum is the same sum on both sides, the logistic function is
  on both sides 1 / (1 + exp(−z)), and the two final arrangements agree because u and c are always real numbers and the
  precondition makes the state and the attention score real: a ring identity.

  The frames: each program terminates without a fault and leaves its twelve argument arrays unchanged; for the two
  kernel programs from the launch's run, for the reference from the run of its host operations. The idealized kernel is
  the printed kernel read at the ideal instance, with no rewrite, so there is nothing to preserve.
-/
import proofs.«116195_j32049045963131_2_alg».proof.Defs
import proofs.«116195_j32049045963131_2_alg».proof.Proof.Gen.Kernel
import proofs.«116195_j32049045963131_2_alg».proof.Proof.Gen.KernelIdeal
import proofs.«116195_j32049045963131_2_alg».proof.Proof.Gen.ReferenceIdeal
import proofs.«116195_j32049045963131_2_alg».proof.Proof.Gen.Pre_finite_inputs
import proofs.«116195_j32049045963131_2_alg».proof.Proof.Gen.ReferenceIdeal.Run
import proofs.«116195_j32049045963131_2_alg».proof.Proof.Gen.ReferenceIdeal.Read
import proofs.«116195_j32049045963131_2_alg».proof.Proof.CellLaunchBits
import proofs.«116195_j32049045963131_2_alg».proof.Proof.CellLaunchIdeal
import proofs.«116195_j32049045963131_2_alg».proof.Proof.CellArray
import proofs.«116195_j32049045963131_2_alg».proof.Proof.ReferenceCell
import proofs.«116195_j32049045963131_2_alg».proof.Proof.FiniteArgs
import proofs.«116195_j32049045963131_2_alg».proof.Proof.CellSpec
import Idealize.ShloMosaic.Adequacy
import Idealize.ShloMosaic.Init

set_option maxRecDepth 16384

noncomputable section

namespace Cert.Proof

open Idealize.ShloMosaic Idealize.SL.Sem

/-- The reference runs to the end and leaves its arguments unchanged: its host operations' run, the result dropped. -/
theorem frame_reference : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- From memories that agree on the arguments, the idealized kernel and the idealized reference both run to the end, and
    both results are the cell's new state: the kernel's in the arrangement h + (a·u)·(c − h), the reference's in
    (1 − a·u)·h + (a·u)·c, equal because the state and the attention score are real. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.CellValue.newState m c, Cert.KernelIdeal.CellValue.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11⟩ := hagree c
  obtain ⟨hstate, hatt⟩ := Cert.FiniteArgs.state_and_attention_real _ _ _ _ _ _ _ _ _ _ _ _ (hpre c)
  rw [(h c).1, Cert.ReferenceIdeal.Read.val_main_v38_eq, Cert.ReferenceIdeal.RefCell.reference_mixed,
    e0, e1, e2, e3, e4, e5, e6, e7, e8, e9, e10, e11]
  exact (Cert.CellSpec.moved_eq_mixed _ _ _ _ _ _ _ _ _ _ _ _ hstate hatt).symm

theorem claim : Cert.Claim := ⟨Cert.Kernel.Gen.facts, Cert.KernelIdeal.Gen.facts, Cert.ReferenceIdeal.Gen.facts, Cert.Pre_finite_inputs.Gen.facts,
  fun m ρ _ => Cert.Kernel.Cell.frame m ρ,
  fun m ρ _ => Cert.KernelIdeal.Cell.frame m ρ,
  frame_reference,
  trivial,
  algebraic⟩

end Cert.Proof

end
